-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x100000x32 : Shape := ⟨3, ![1, 100000, 32]⟩
abbrev S1x100000x16 : Shape := ⟨3, ![1, 100000, 16]⟩
abbrev S1x100000x16x16 : Shape := ⟨4, ![1, 100000, 16, 16]⟩
abbrev S1x100000x16x3 : Shape := ⟨4, ![1, 100000, 16, 3]⟩
abbrev S_ : Shape := ⟨0, ![]⟩

class Facts : Prop where
  bcast_S_S1x100000x32 : S_.BroadcastsInDim S1x100000x32 (![] : Fin 0 → Fin S1x100000x32.rank)
  reducesTo_S1x100000x32_S_d0_1_2 : S1x100000x32.ReducesTo [0, 1, 2] S_
  h_S_ : 0 < S_.numel
  bcast_S_S1x100000x16x16 : S_.BroadcastsInDim S1x100000x16x16 (![] : Fin 0 → Fin S1x100000x16x16.rank)
  reducesTo_S1x100000x16x16_S_d0_1_2_3 : S1x100000x16x16.ReducesTo [0, 1, 2, 3] S_
  bcast_S_S1x100000x16x3 : S_.BroadcastsInDim S1x100000x16x3 (![] : Fin 0 → Fin S1x100000x16x3.rank)
  reducesTo_S1x100000x16x3_S_d0_1_2_3 : S1x100000x16x3.ReducesTo [0, 1, 2, 3] S_

variable [Facts]

def fn {F : FTy → Type} [FloatOps F] (main_arg0 : FVec F S1x100000x32 .f32) (main_arg1 : IVec S1x100000x16 32) (main_arg2 : FVec F S1x100000x16x16 .f32) (main_arg3 : FVec F S1x100000x16x3 .f32) : IVec S_ 1 :=
  let main_v0 : FVec F S1x100000x32 .f32 := Host.absf main_arg0
  let main_cst : FVec F S_ .f32 := constant S_ .f32 0x7F800000#32
  let main_v1 : FVec F S1x100000x32 .f32 := broadcastInDim S1x100000x32 ![] bcast_S_S1x100000x32 main_cst
  let main_v2 : IVec S1x100000x32 1 := cmpf .olt main_v0 main_v1
  let main_c : IVec S_ 1 := constantI S_ 1 1#1
  let main_v3 : IVec S_ 1 := (fun x v => Host.reduce IntOp.andi x v reducesTo_S1x100000x32_S_d0_1_2 h_S_) main_v2 main_c
  let main_v4 : FVec F S1x100000x16x16 .f32 := Host.absf main_arg2
  let main_cst_0 : FVec F S_ .f32 := constant S_ .f32 0x7F800000#32
  let main_v5 : FVec F S1x100000x16x16 .f32 := broadcastInDim S1x100000x16x16 ![] bcast_S_S1x100000x16x16 main_cst_0
  let main_v6 : IVec S1x100000x16x16 1 := cmpf .olt main_v4 main_v5
  let main_c_1 : IVec S_ 1 := constantI S_ 1 1#1
  let main_v7 : IVec S_ 1 := (fun x v => Host.reduce IntOp.andi x v reducesTo_S1x100000x16x16_S_d0_1_2_3 h_S_) main_v6 main_c_1
  let main_v8 : IVec S_ 1 := andi main_v3 main_v7
  let main_v9 : FVec F S1x100000x16x3 .f32 := Host.absf main_arg3
  let main_cst_2 : FVec F S_ .f32 := constant S_ .f32 0x7F800000#32
  let main_v10 : FVec F S1x100000x16x3 .f32 := broadcastInDim S1x100000x16x3 ![] bcast_S_S1x100000x16x3 main_cst_2
  let main_v11 : IVec S1x100000x16x3 1 := cmpf .olt main_v9 main_v10
  let main_c_3 : IVec S_ 1 := constantI S_ 1 1#1
  let main_v12 : IVec S_ 1 := (fun x v => Host.reduce IntOp.andi x v reducesTo_S1x100000x16x3_S_d0_1_2_3 h_S_) main_v11 main_c_3
  let main_v13 : IVec S_ 1 := andi main_v8 main_v12
  main_v13
-- ==== Kernel.lean ====
abbrev S1x100000x32 : Shape := ⟨3, ![1, 100000, 32]⟩
abbrev S1x100000x16 : Shape := ⟨3, ![1, 100000, 16]⟩
abbrev S1x100000x16x16 : Shape := ⟨4, ![1, 100000, 16, 16]⟩
abbrev S1x100000x16x3 : Shape := ⟨4, ![1, 100000, 16, 3]⟩
abbrev S_ : Shape := ⟨0, ![]⟩
abbrev S1x100000x16x1 : Shape := ⟨4, ![1, 100000, 16, 1]⟩
abbrev S1x100000x16x32 : Shape := ⟨4, ![1, 100000, 16, 32]⟩
abbrev S1x100000x35x16 : Shape := ⟨4, ![1, 100000, 35, 16]⟩
abbrev S1x400x16x32 : Shape := ⟨4, ![1, 400, 16, 32]⟩
abbrev S1x400x16x16 : Shape := ⟨4, ![1, 400, 16, 16]⟩
abbrev S1x400x16x3 : Shape := ⟨4, ![1, 400, 16, 3]⟩
abbrev S1x400x35x16 : Shape := ⟨4, ![1, 400, 35, 16]⟩
abbrev S400x16x32 : Shape := ⟨3, ![400, 16, 32]⟩
abbrev S400x16x3 : Shape := ⟨3, ![400, 16, 3]⟩
abbrev S400x16x16 : Shape := ⟨3, ![400, 16, 16]⟩
abbrev S400x16x35 : Shape := ⟨3, ![400, 16, 35]⟩
abbrev S400x35x16 : Shape := ⟨3, ![400, 35, 16]⟩
abbrev S1x100000x560 : Shape := ⟨3, ![1, 100000, 560]⟩

abbrev nBuf : Space → Nat
  | .hbm => 16
  | .vmem => 8
  | .smem => 0
  | _ => 0

abbrev bufTy : (tb : Table) → Fin (tcTables nBuf tb) → BufTy
  | .hbm, ⟨0, _⟩ => ⟨S1x100000x32, .f32⟩
  | .hbm, ⟨1, _⟩ => ⟨S1x100000x16, .i32⟩
  | .hbm, ⟨2, _⟩ => ⟨S1x100000x16x16, .f32⟩
  | .hbm, ⟨3, _⟩ => ⟨S1x100000x16x3, .f32⟩
  | .hbm, ⟨4, _⟩ => ⟨S1x100000x32, .bf16⟩
  | .hbm, ⟨5, _⟩ => ⟨S_, .i32⟩
  | .hbm, ⟨6, _⟩ => ⟨S1x100000x16, .i32⟩
  | .hbm, ⟨7, _⟩ => ⟨S1x100000x16, .i1⟩
  | .hbm, ⟨8, _⟩ => ⟨S_, .i32⟩
  | .hbm, ⟨9, _⟩ => ⟨S1x100000x16, .i32⟩
  | .hbm, ⟨10, _⟩ => ⟨S1x100000x16, .i32⟩
  | .hbm, ⟨11, _⟩ => ⟨S1x100000x16, .i32⟩
  | .hbm, ⟨12, _⟩ => ⟨S1x100000x16x1, .i32⟩
  | .hbm, ⟨13, _⟩ => ⟨S1x100000x16x32, .bf16⟩
  | .hbm, ⟨14, _⟩ => ⟨S1x100000x35x16, .f32⟩
  | .hbm, ⟨15, _⟩ => ⟨S1x100000x560, .f32⟩
  | .local _ .vmem, ⟨0, _⟩ => ⟨S1x400x16x32, .bf16⟩
  | .local _ .vmem, ⟨1, _⟩ => ⟨S1x400x16x32, .bf16⟩
  | .local _ .vmem, ⟨2, _⟩ => ⟨S1x400x16x16, .f32⟩
  | .local _ .vmem, ⟨3, _⟩ => ⟨S1x400x16x16, .f32⟩
  | .local _ .vmem, ⟨4, _⟩ => ⟨S1x400x16x3, .f32⟩
  | .local _ .vmem, ⟨5, _⟩ => ⟨S1x400x16x3, .f32⟩
  | .local _ .vmem, ⟨6, _⟩ => ⟨S1x400x35x16, .f32⟩
  | .local _ .vmem, ⟨7, _⟩ => ⟨S1x400x35x16, .f32⟩
  | _, _ => ⟨S1x100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x400x16x32 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x400x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x400x16x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x400x35x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  bcast_S_S1x100000x16 : S_.BroadcastsInDim S1x100000x16 (![] : Fin 0 → Fin S1x100000x16.rank)
  bcast_S1x100000x16_S1x100000x16x1_0_1_2 : S1x100000x16.BroadcastsInDim S1x100000x16x1 (![0, 1, 2] : Fin 3 → Fin S1x100000x16x1.rank)
  inb_S1x400x16x32_S1x400x16x32_0_0_0_0 : ∀ a, (![0, 0, 0, 0] : Fin 4 → Nat) a + S1x400x16x32.size a ≤ S1x400x16x32.size a
  h_S1x400x16x32 : 0 < S1x400x16x32.numel
  shapeCasts_S1x400x16x32_S400x16x32 : S1x400x16x32.ShapeCasts S400x16x32
  inb_S1x400x16x3_S1x400x16x3_0_0_0_0 : ∀ a, (![0, 0, 0, 0] : Fin 4 → Nat) a + S1x400x16x3.size a ≤ S1x400x16x3.size a
  h_S1x400x16x3 : 0 < S1x400x16x3.numel
  shapeCasts_S1x400x16x3_S400x16x3 : S1x400x16x3.ShapeCasts S400x16x3
  inb_S1x400x16x16_S1x400x16x16_0_0_0_0 : ∀ a, (![0, 0, 0, 0] : Fin 4 → Nat) a + S1x400x16x16.size a ≤ S1x400x16x16.size a
  h_S1x400x16x16 : 0 < S1x400x16x16.numel
  shapeCasts_S1x400x16x16_S400x16x16 : S1x400x16x16.ShapeCasts S400x16x16
  concatenates_S400x16x32_S400x16x3_S400x16x35_d2 : Shape.Concatenates [S400x16x32, S400x16x3] S400x16x35 2
  inb_S1x400x35x16_S1x400x35x16_0_0_0_0 : ∀ a, (![0, 0, 0, 0] : Fin 4 → Nat) a + S1x400x35x16.size a ≤ S1x400x35x16.size a
  h_S1x400x35x16 : 0 < S1x400x35x16.numel
  shapeCasts_S1x400x35x16_S400x35x16 : S1x400x35x16.ShapeCasts S400x35x16
  shapeCasts_S400x35x16_S1x400x35x16 : S400x35x16.ShapeCasts S1x400x35x16
  shapeCasts_S1x100000x35x16_S1x100000x560 : S1x100000x35x16.ShapeCasts S1x100000x560
  gather_S1x100000x32_S1x100000x16x1_S1x100000x16x32_3_1_0_0_1_3_1132_wf : GatherDims.WF S1x100000x32 S1x100000x16x1 S1x100000x16x32 [3] [1] [0] [1] [0] 3 ![1, 1, 32]
  dot_S400x16x35_S400x16x16_S400x35x16_1_1_2_2_0_0_wf : DotDims.WF S400x16x35 S400x16x16 S400x35x16 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x400x16x32.size a ≤ S1x100000x16x32.size a
  hwx0_0 : ∀ i : grid0.Coords, EltTy.bits .bf16 = 32 ∨ (Rect.block (s := S1x100000x16x32) S1x400x16x32.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x400x16x16.size a ≤ S1x100000x16x16.size a
  hwx0_1 : ∀ i : grid0.Coords, EltTy.bits .f32 = 32 ∨ (Rect.block (s := S1x100000x16x16) S1x400x16x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x400x16x3.size a ≤ S1x100000x16x3.size a
  hwx0_2 : ∀ i : grid0.Coords, EltTy.bits .f32 = 32 ∨ (Rect.block (s := S1x100000x16x3) S1x400x16x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x400x35x16.size a ≤ S1x100000x35x16.size a
  hwx0_3 : ∀ i : grid0.Coords, EltTy.bits .f32 = 32 ∨ (Rect.block (s := S1x100000x35x16) S1x400x35x16.size (cc0_transform_3 i) (hinb0_3 i)).WholeWords (EltTy.packing .f32)

variable [Facts₀]

def gather_S1x100000x32_S1x100000x16x1_S1x100000x16x32_3_1_0_0_1_3_1132 : GatherDims S1x100000x32 S1x100000x16x1 S1x100000x16x32 where
  offsetDims := [3]
  collapsedSliceDims := [1]
  operandBatchingDims := [0]
  startIndicesBatchingDims := [0]
  startIndexMap := [1]
  indexVectorDim := 3
  sliceSizes := ![1, 1, 32]
  wf := gather_S1x100000x32_S1x100000x16x1_S1x100000x16x32_3_1_0_0_1_3_1132_wf
def dot_S400x16x35_S400x16x16_S400x35x16_1_1_2_2_0_0 : DotDims S400x16x35 S400x16x16 S400x35x16 where
  lhsContracting := [1]
  rhsContracting := [1]
  lhsNonContracting := [2]
  rhsNonContracting := [2]
  lhsBatch := [0]
  rhsBatch := [0]
  wf := dot_S400x16x35_S400x16x16_S400x35x16_1_1_2_2_0_0_wf

abbrev win0_0 : Pipeline.Window sig grid0 :=
  Pipeline.Window.ofSpec (Memref.whole main_v7) S1x400x16x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x400x16x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x400x16x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x400x35x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x100000x32 : Shape := ⟨3, ![1, 100000, 32]⟩
abbrev S1x100000x16 : Shape := ⟨3, ![1, 100000, 16]⟩
abbrev S1x100000x16x16 : Shape := ⟨4, ![1, 100000, 16, 16]⟩
abbrev S1x100000x16x3 : Shape := ⟨4, ![1, 100000, 16, 3]⟩
abbrev S_ : Shape := ⟨0, ![]⟩
abbrev S1x100000x16x1 : Shape := ⟨4, ![1, 100000, 16, 1]⟩
abbrev S1x100000x16x32 : Shape := ⟨4, ![1, 100000, 16, 32]⟩
abbrev S1x100000x16x35 : Shape := ⟨4, ![1, 100000, 16, 35]⟩
abbrev S1x100000x35x16 : Shape := ⟨4, ![1, 100000, 35, 16]⟩
abbrev S1x100000x560 : Shape := ⟨3, ![1, 100000, 560]⟩

abbrev nBuf : Space → Nat
  | .hbm => 16
  | .vmem => 0
  | .smem => 0
  | _ => 0

abbrev bufTy : (tb : Table) → Fin (tcTables nBuf tb) → BufTy
  | .hbm, ⟨0, _⟩ => ⟨S1x100000x32, .f32⟩
  | .hbm, ⟨1, _⟩ => ⟨S1x100000x16, .i32⟩
  | .hbm, ⟨2, _⟩ => ⟨S1x100000x16x16, .f32⟩
  | .hbm, ⟨3, _⟩ => ⟨S1x100000x16x3, .f32⟩
  | .hbm, ⟨4, _⟩ => ⟨S_, .i32⟩
  | .hbm, ⟨5, _⟩ => ⟨S1x100000x16, .i32⟩
  | .hbm, ⟨6, _⟩ => ⟨S1x100000x16, .i1⟩
  | .hbm, ⟨7, _⟩ => ⟨S_, .i32⟩
  | .hbm, ⟨8, _⟩ => ⟨S1x100000x16, .i32⟩
  | .hbm, ⟨9, _⟩ => ⟨S1x100000x16, .i32⟩
  | .hbm, ⟨10, _⟩ => ⟨S1x100000x16, .i32⟩
  | .hbm, ⟨11, _⟩ => ⟨S1x100000x16x1, .i32⟩
  | .hbm, ⟨12, _⟩ => ⟨S1x100000x16x32, .f32⟩
  | .hbm, ⟨13, _⟩ => ⟨S1x100000x16x35, .f32⟩
  | .hbm, ⟨14, _⟩ => ⟨S1x100000x35x16, .f32⟩
  | .hbm, ⟨15, _⟩ => ⟨S1x100000x560, .f32⟩
  | _, _ => ⟨S1x100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S_S1x100000x16 : S_.BroadcastsInDim S1x100000x16 (![] : Fin 0 → Fin S1x100000x16.rank)
  bcast_S1x100000x16_S1x100000x16x1_0_1_2 : S1x100000x16.BroadcastsInDim S1x100000x16x1 (![0, 1, 2] : Fin 3 → Fin S1x100000x16x1.rank)
  concatenates_S1x100000x16x32_S1x100000x16x3_S1x100000x16x35_d3 : Shape.Concatenates [S1x100000x16x32, S1x100000x16x3] S1x100000x16x35 3
  shapeCasts_S1x100000x35x16_S1x100000x560 : S1x100000x35x16.ShapeCasts S1x100000x560
  gather_S1x100000x32_S1x100000x16x1_S1x100000x16x32_3_1_0_0_1_3_1132_wf : GatherDims.WF S1x100000x32 S1x100000x16x1 S1x100000x16x32 [3] [1] [0] [1] [0] 3 ![1, 1, 32]
  dot_S1x100000x16x35_S1x100000x16x16_S1x100000x35x16_2_2_3_3_01_01_wf : DotDims.WF S1x100000x16x35 S1x100000x16x16 S1x100000x35x16 [2] [2] [3] [3] [0, 1] [0, 1]

variable [Facts₀]

def gather_S1x100000x32_S1x100000x16x1_S1x100000x16x32_3_1_0_0_1_3_1132 : GatherDims S1x100000x32 S1x100000x16x1 S1x100000x16x32 where
  offsetDims := [3]
  collapsedSliceDims := [1]
  operandBatchingDims := [0]
  startIndicesBatchingDims := [0]
  startIndexMap := [1]
  indexVectorDim := 3
  sliceSizes := ![1, 1, 32]
  wf := gather_S1x100000x32_S1x100000x16x1_S1x100000x16x32_3_1_0_0_1_3_1132_wf
def dot_S1x100000x16x35_S1x100000x16x16_S1x100000x35x16_2_2_3_3_01_01 : DotDims S1x100000x16x35 S1x100000x16x16 S1x100000x35x16 where
  lhsContracting := [2]
  rhsContracting := [2]
  lhsNonContracting := [3]
  rhsNonContracting := [3]
  lhsBatch := [0, 1]
  rhsBatch := [0, 1]
  wf := dot_S1x100000x16x35_S1x100000x16x16_S1x100000x35x16_2_2_3_3_01_01_wf

class Facts : Prop extends Facts₀ where

variable [Facts]
-- ==== Proof.Spec.lean ====
/-
  The point convolution, written once for any number of points. Every point n has 16 neighbours k; neighbour k carries a
  feature row of 35 channels — 32 gathered channels followed by 3 additional ones — and a weight row of 16 entries.
  The point's output is the 35 × 16 matrix  out[n, c, m] = Σ_k feat[n, k, c] · w[n, k, m].  Nothing here depends on a
  program: the arrays are functions on index sets, the values extended reals, the sum the exact one.
-/
import Idealize.ShloMosaic.PureOps.Ideal
import Idealize.ShloMosaic.Lib.ValueIdx

noncomputable section

namespace Cert.PointConv

open Idealize.ShloMosaic Idealize.ShloMosaic.ValueIdx

/-- Channel `c` of neighbour `k` of point `n`: a gathered channel below 32, the additional channel `c - 32` from there on. -/
def featRow {N : Nat} (g : (⟨4, ![1, N, 16, 32]⟩ : Shape).Idx → EReal) (a : (⟨4, ![1, N, 16, 3]⟩ : Shape).Idx → EReal)
    (b : Fin 1) (n : Fin N) (k : Fin 16) (c : Fin 35) : EReal :=
  if h : c.val < 32 then g (ix4 b n k ⟨c.val, h⟩) else a (ix4 b n k ⟨c.val - 32, by have := c.isLt; omega⟩)

/-- The result over `N` points: entry (n, c, m) is the sum over the 16 neighbours of the feature channel times the weight. -/
def convOut (N : Nat) (g : (⟨4, ![1, N, 16, 32]⟩ : Shape).Idx → EReal) (w : (⟨4, ![1, N, 16, 16]⟩ : Shape).Idx → EReal)
    (a : (⟨4, ![1, N, 16, 3]⟩ : Shape).Idx → EReal) : (⟨4, ![1, N, 35, 16]⟩ : Shape).Idx → EReal := fun i =>
  ∑ k : Fin 16, featRow g a (i 0) (i 1) k (i 2) * w (ix4 (i 0) (i 1) k (i 3))

theorem convOut_ix4 (N : Nat) (g : (⟨4, ![1, N, 16, 32]⟩ : Shape).Idx → EReal) (w : (⟨4, ![1, N, 16, 16]⟩ : Shape).Idx → EReal)
    (a : (⟨4, ![1, N, 16, 3]⟩ : Shape).Idx → EReal) (b : Fin 1) (n : Fin N) (c : Fin 35) (m : Fin 16) :
    convOut N g w a (ix4 b n c m) = ∑ k : Fin 16, featRow g a b n k c * w (ix4 b n k m) := rfl

/-- A point's output depends on its own rows only: if point `n'` of one family of arrays carries the rows of point `n`
    of another, the two outputs agree entry by entry. -/
theorem convOut_restrict {N N' : Nat}
    (g : (⟨4, ![1, N, 16, 32]⟩ : Shape).Idx → EReal) (w : (⟨4, ![1, N, 16, 16]⟩ : Shape).Idx → EReal) (a : (⟨4, ![1, N, 16, 3]⟩ : Shape).Idx → EReal)
    (g' : (⟨4, ![1, N', 16, 32]⟩ : Shape).Idx → EReal) (w' : (⟨4, ![1, N', 16, 16]⟩ : Shape).Idx → EReal) (a' : (⟨4, ![1, N', 16, 3]⟩ : Shape).Idx → EReal)
    (b : Fin 1) (n : Fin N) (n' : Fin N') (c : Fin 35) (m : Fin 16)
    (hg : ∀ (k : Fin 16) (cc : Fin 32), g' (ix4 b n' k cc) = g (ix4 b n k cc))
    (hw : ∀ (k : Fin 16) (mm : Fin 16), w' (ix4 b n' k mm) = w (ix4 b n k mm))
    (ha : ∀ (k : Fin 16) (cc : Fin 3), a' (ix4 b n' k cc) = a (ix4 b n k cc)) :
    convOut N' g' w' a' (ix4 b n' c m) = convOut N g w a (ix4 b n c m) := by
  rw [convOut_ix4, convOut_ix4]
  refine Finset.sum_congr rfl fun k _ => ?_
  rw [hw k m]
  unfold featRow
  by_cases h : c.val < 32
  · rw [dif_pos h, dif_pos h, hg]
  · rw [dif_neg h, dif_neg h, ha]

end Cert.PointConv

end
-- ==== Proof.Payload.lean ====
/-
  One grid step's stored block, entry by entry. The step holds 400 points; its stored value is the batched matrix
  product, over the 16 neighbours, of the concatenated feature rows (32 gathered channels, then the 3 additional ones)
  with the weight rows, accumulated into zero. At the exact values the changes of float format are the identity, the
  product into the zero accumulator is the plain sum over the neighbours, and the leading unit axis of the blocks is
  only carried along: the block is the point convolution of its 400 points.
-/
import proofs.«151088_j4097398800822_2_alg».proof.Proof.Gen.KernelIdeal.Skeleton
import proofs.«151088_j4097398800822_2_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.ValueIdx Cert.PointConv

/-- The batched product's dimension numbers: batch axis 0 on both sides, the neighbour axis 1 contracted, the channel
    axis 2 of each operand kept. -/
abbrev dK : DotDims S400x16x35 S400x16x16 S400x35x16 := dot_S400x16x35_S400x16x16_S400x35x16_1_1_2_2_0_0

theorem lhs0 (i : S400x35x16.Idx) (q : dK.contr.Idx) : (DotDims.lhsIdx dK i q 0).val = (i 0).val := by
  unfold DotDims.lhsIdx
  rw [dif_pos (show (0 : Fin S400x16x35.rank) ∈ dK.lhsBatch by decide)]
  rfl
theorem lhs1 (i : S400x35x16.Idx) (q : dK.contr.Idx) : (DotDims.lhsIdx dK i q 1).val = (q ⟨0, by decide⟩).val :=
  DotDims.lhsIdx_val_of_single dK rfl i q
theorem lhs2 (i : S400x35x16.Idx) (q : dK.contr.Idx) : (DotDims.lhsIdx dK i q 2).val = (i 1).val := by
  unfold DotDims.lhsIdx
  rw [dif_neg (show ¬(2 : Fin S400x16x35.rank) ∈ dK.lhsBatch by decide), dif_pos (show (2 : Fin S400x16x35.rank) ∈ dK.lhsNonContracting by decide)]
  rfl
theorem rhs0 (i : S400x35x16.Idx) (q : dK.contr.Idx) : (DotDims.rhsIdx dK i q 0).val = (i 0).val := by
  unfold DotDims.rhsIdx
  rw [dif_pos (show (0 : Fin S400x16x16.rank) ∈ dK.rhsBatch by decide)]
  rfl
theorem rhs1 (i : S400x35x16.Idx) (q : dK.contr.Idx) : (DotDims.rhsIdx dK i q 1).val = (q ⟨0, by decide⟩).val :=
  DotDims.rhsIdx_val_of_single dK rfl i q
theorem rhs2 (i : S400x35x16.Idx) (q : dK.contr.Idx) : (DotDims.rhsIdx dK i q 2).val = (i 2).val := by
  unfold DotDims.rhsIdx
  rw [dif_neg (show ¬(2 : Fin S400x16x16.rank) ∈ dK.rhsBatch by decide), dif_pos (show (2 : Fin S400x16x16.rank) ∈ dK.rhsNonContracting by decide)]
  rfl

/-- The batched product into zero at entry (n, c, m): the sum over the neighbours k of l[n, k, c] · r[n, k, m]. -/
theorem matmul_at (l : FVec Ideal S400x16x35 .bf16) (r : FVec Ideal S400x16x16 .bf16) (n : Fin 400) (c : Fin 35) (m : Fin 16) :
    matmul dK none l r (constant (F := Ideal) S400x35x16 .f32 0x00000000#32) (ix3 n c m) = ∑ k : Fin 16, l (ix3 n k c) * r (ix3 n k m) := by
  refine (Ideal.matmul_constant_zero_apply dK none l r (ix3 n c m)).trans ?_
  rw [← Equiv.sum_comp (contrEquiv1 dK 16 rfl rfl).symm]
  refine Finset.sum_congr rfl fun k _ => ?_
  have hk := contrEquiv1_symm_val dK 16 rfl rfl k
  have el : DotDims.lhsIdx dK (ix3 n c m) ((contrEquiv1 dK 16 rfl rfl).symm k) = ix3 n k c := funext fun a => Fin.ext (by
    match a with
    | ⟨0, _⟩ => exact lhs0 _ _
    | ⟨1, _⟩ => exact (lhs1 _ _).trans hk
    | ⟨2, _⟩ => exact lhs2 _ _)
  have er : DotDims.rhsIdx dK (ix3 n c m) ((contrEquiv1 dK 16 rfl rfl).symm k) = ix3 n k m := funext fun a => Fin.ext (by
    match a with
    | ⟨0, _⟩ => exact rhs0 _ _
    | ⟨1, _⟩ => exact (rhs1 _ _).trans hk
    | ⟨2, _⟩ => exact rhs2 _ _)
  rw [el, er]

/-- The concatenated feature row at channel `c`: the first piece below 32, the second piece at `c - 32` from there on. -/
theorem concat_at (v1 : FVec Ideal S400x16x32 .bf16) (v4 : FVec Ideal S400x16x3 .bf16) (n : Fin 400) (k : Fin 16) (c : Fin 35) :
    concatenate S400x16x35 2 [⟨S400x16x32, v1⟩, ⟨S400x16x3, v4⟩] concatenates_S400x16x32_S400x16x3_S400x16x35_d2 (ix3 n k c)
      = if h : c.val < 32 then v1 (ix3 n k ⟨c.val, h⟩) else v4 (ix3 n k ⟨c.val - 32, by have := c.isLt; omega⟩) := by
  by_cases h : c.val < 32
  · rw [dif_pos h]
    exact concatenate_pair_apply_left (2 : Fin S400x16x35.rank) v1 v4 _ (ix3 n k c) rfl (ix3 n k ⟨c.val, h⟩)
      (fun b => by match b with | ⟨0, _⟩ => rfl | ⟨1, _⟩ => rfl | ⟨2, _⟩ => rfl)
  · rw [dif_neg h]
    exact concatenate_pair_apply_right (2 : Fin S400x16x35.rank) v1 v4 _ (ix3 n k c) rfl rfl (ix3 n k ⟨c.val - 32, by have := c.isLt; omega⟩)
      (fun b hb => by match b, hb with | ⟨0, _⟩, _ => rfl | ⟨1, _⟩, _ => rfl | ⟨2, _⟩, hb => exact absurd rfl hb)
      (by show (c.val - 32) + 32 = c.val; omega)

/-- THE BLOCK: what a grid step stores is the point convolution of the step's 400 points. -/
theorem payload_eq (v0 : Vec Ideal S1x400x16x32 .bf16) (v2 : Vec Ideal S1x400x16x3 .f32) (v5 : Vec Ideal S1x400x16x16 .f32) :
    k0_pay1 (F := Ideal) v0 v2 v5 = convOut 400 v0 v5 v2 := by
  funext y
  obtain ⟨b, n, c, m, rfl⟩ : ∃ (b : Fin 1) (n : Fin 400) (c : Fin 35) (m : Fin 16), y = ix4 b n c m := ⟨y 0, y 1, y 2, y 3, eq_ix4 y⟩
  obtain rfl : b = 0 := Subsingleton.elim _ _
  rw [convOut_ix4]
  unfold k0_pay1
  refine (shapeCast_addUnit_apply ![400, 35, 16] _ _ (ix4 (0 : Fin 1) n c m)).trans ?_
  have e3 : (fun a : Fin 3 => (ix4 (0 : Fin 1) n c m : (⟨4, ![1, 400, 35, 16]⟩ : Shape).Idx) a.succ) = ix3 n c m :=
    funext fun a => by match a with | ⟨0, _⟩ => rfl | ⟨1, _⟩ => rfl | ⟨2, _⟩ => rfl
  rw [e3]
  refine (matmul_at _ _ n c m).trans ?_
  refine Finset.sum_congr rfl fun k _ => ?_
  have cons4 : ∀ {d : Nat} (x : Fin d), (Fin.cons ⟨0, Nat.one_pos⟩ (ix3 n k x) : (⟨4, ![1, 400, 16, d]⟩ : Shape).Idx) = ix4 (0 : Fin 1) n k x :=
    fun x => funext fun a => by match a with | ⟨0, _⟩ => rfl | ⟨1, _⟩ => rfl | ⟨2, _⟩ => rfl | ⟨3, _⟩ => rfl
  refine congrArg₂ (· * ·) ?_ ?_
  · refine (concat_at _ _ n k c).trans ?_
    unfold featRow
    by_cases h : c.val < 32
    · rw [dif_pos h, dif_pos h]
      exact (shapeCast_dropUnit_apply ![400, 16, 32] v0 _ _).trans (congrArg v0 (cons4 _))
    · rw [dif_neg h, dif_neg h]
      exact (shapeCast_dropUnit_apply ![400, 16, 3] v2 _ _).trans (congrArg v2 (cons4 _))
  · exact (shapeCast_dropUnit_apply ![400, 16, 16] v5 _ (ix3 n k m)).trans (congrArg v5 (cons4 m))

end Cert.KernelIdeal.Hand

end
-- ==== Proof.Blocks.lean ====
/-
  From the grid steps to the whole array. Step t of the 250 stages rows 400·t … 400·t + 399 of the gathered features,
  of the weights and of the additional features, and writes back rows 400·t … 400·t + 399 of the result; the other
  three axes are staged whole. Since a point's output depends on that point's rows only, what step t writes back is
  block t of the point convolution of the whole arrays; the 250 blocks tile the 100000 rows, so after the last step
  the result array is that point convolution.
-/
import proofs.«151088_j4097398800822_2_alg».proof.Proof.Gen.KernelIdeal.Frame
import proofs.«151088_j4097398800822_2_alg».proof.Proof.Payload
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.PointConv
open Idealize.ShloMosaic.Pipeline (Dat)

variable (m : (ℓ : Loc nD τ sig) → Buf (Elt Ideal) ℓ)

theorem hz : (![0, 0, 0, 0] : Fin 4 → Nat) = fun _ => 0 := funext fun a => by fin_cases a <;> rfl

/-- The four index maps, decided over the grid: every window moves along the row axis only, all four together, and
    stays within the 250 row blocks. -/
theorem idx_facts : ∀ t : Fin cfg0.N,
    (win0_0.index t (0 : Fin 4) = 0 ∧ win0_0.index t (1 : Fin 4) = win0_3.index t (1 : Fin 4) ∧ win0_0.index t (2 : Fin 4) = 0 ∧ win0_0.index t (3 : Fin 4) = 0)
    ∧ (win0_1.index t (0 : Fin 4) = 0 ∧ win0_1.index t (1 : Fin 4) = win0_3.index t (1 : Fin 4) ∧ win0_1.index t (2 : Fin 4) = 0 ∧ win0_1.index t (3 : Fin 4) = 0)
    ∧ (win0_2.index t (0 : Fin 4) = 0 ∧ win0_2.index t (1 : Fin 4) = win0_3.index t (1 : Fin 4) ∧ win0_2.index t (2 : Fin 4) = 0 ∧ win0_2.index t (3 : Fin 4) = 0)
    ∧ (win0_3.index t (0 : Fin 4) = 0 ∧ win0_3.index t (1 : Fin 4) ≤ 249 ∧ win0_3.index t (2 : Fin 4) = 0 ∧ win0_3.index t (3 : Fin 4) = 0) :=
  (by decide +kernel : ∀ t : Fin grid0.N, _)

/-- Every row block is some step's. -/
theorem idx_onto : ∀ q : Fin 250, ∃ t : Fin cfg0.N, win0_3.index t = ![0, q.val, 0, 0] :=
  (by decide +kernel : ∀ q : Fin 250, ∃ t : Fin grid0.N, win0_3.index t = ![0, q.val, 0, 0])

/-- Row `n` of step `t`'s block is row `400·(t's row block) + n` of the array. -/
abbrev rowOf (t : Fin cfg0.N) (n : Fin 400) : Fin 100000 :=
  ⟨win0_3.index t (1 : Fin 4) * 400 + 1 * n.val, by have := (idx_facts t).2.2.2.2.1; have := n.isLt; omega⟩

/-- The staged block of the gathered features, read where the array holds it. -/
theorem gathered_blk (c : Dev nD) (t : Fin cfg0.N) (b : Fin 1) (n : Fin 400) (k : Fin 16) (cc : Fin 32) :
    iblk m c 0 t (ix4 b n k cc) = V m c main_v7 (ix4 b (rowOf t n) k cc) := by
  obtain ⟨⟨e0, e1, e2, e3⟩, -, -, -⟩ := idx_facts t
  show V m c main_v7 (((cfg0.win 0).blk t).view.emb (ix4 b n k cc)) = _
  refine congrArg (V m c main_v7) (funext fun a => Fin.ext ?_)
  match a with
  | ⟨0, _⟩ => show win0_0.index t (0 : Fin 4) * 1 + 1 * b.val = b.val; omega
  | ⟨1, _⟩ => show win0_0.index t (1 : Fin 4) * 400 + 1 * n.val = win0_3.index t (1 : Fin 4) * 400 + 1 * n.val; omega
  | ⟨2, _⟩ => show win0_0.index t (2 : Fin 4) * 16 + 1 * k.val = k.val; omega
  | ⟨3, _⟩ => show win0_0.index t (3 : Fin 4) * 32 + 1 * cc.val = cc.val; omega

/-- The staged block of the weights, read where the array holds it. -/
theorem weights_blk (c : Dev nD) (t : Fin cfg0.N) (b : Fin 1) (n : Fin 400) (k : Fin 16) (mm : Fin 16) :
    iblk m c 1 t (ix4 b n k mm) = V m c main_arg2 (ix4 b (rowOf t n) k mm) := by
  obtain ⟨-, ⟨e0, e1, e2, e3⟩, -, -⟩ := idx_facts t
  show V m c main_arg2 (((cfg0.win 1).blk t).view.emb (ix4 b n k mm)) = _
  refine congrArg (V m c main_arg2) (funext fun a => Fin.ext ?_)
  match a with
  | ⟨0, _⟩ => show win0_1.index t (0 : Fin 4) * 1 + 1 * b.val = b.val; omega
  | ⟨1, _⟩ => show win0_1.index t (1 : Fin 4) * 400 + 1 * n.val = win0_3.index t (1 : Fin 4) * 400 + 1 * n.val; omega
  | ⟨2, _⟩ => show win0_1.index t (2 : Fin 4) * 16 + 1 * k.val = k.val; omega
  | ⟨3, _⟩ => show win0_1.index t (3 : Fin 4) * 16 + 1 * mm.val = mm.val; omega

/-- The staged block of the additional features, read where the array holds it. -/
theorem additional_blk (c : Dev nD) (t : Fin cfg0.N) (b : Fin 1) (n : Fin 400) (k : Fin 16) (cc : Fin 3) :
    iblk m c 2 t (ix4 b n k cc) = V m c main_arg3 (ix4 b (rowOf t n) k cc) := by
  obtain ⟨-, -, ⟨e0, e1, e2, e3⟩, -⟩ := idx_facts t
  show V m c main_arg3 (((cfg0.win 2).blk t).view.emb (ix4 b n k cc)) = _
  refine congrArg (V m c main_arg3) (funext fun a => Fin.ext ?_)
  match a with
  | ⟨0, _⟩ => show win0_2.index t (0 : Fin 4) * 1 + 1 * b.val = b.val; omega
  | ⟨1, _⟩ => show win0_2.index t (1 : Fin 4) * 400 + 1 * n.val = win0_3.index t (1 : Fin 4) * 400 + 1 * n.val; omega
  | ⟨2, _⟩ => show win0_2.index t (2 : Fin 4) * 16 + 1 * k.val = k.val; omega
  | ⟨3, _⟩ => show win0_2.index t (3 : Fin 4) * 3 + 1 * cc.val = cc.val; omega

/-- Where the result's block sits in the result array. -/
theorem result_emb (t : Fin cfg0.N) (b : Fin 1) (n : Fin 400) (cc : Fin 35) (mm : Fin 16) :
    ((cfg0.win 3).blk t).view.emb (ix4 b n cc mm) = (ix4 b (rowOf t n) cc mm : S1x100000x35x16.Idx) := by
  obtain ⟨-, -, -, ⟨e0, e1, e2, e3⟩⟩ := idx_facts t
  refine funext fun a => Fin.ext ?_
  match a with
  | ⟨0, _⟩ => show win0_3.index t (0 : Fin 4) * 1 + 1 * b.val = b.val; omega
  | ⟨1, _⟩ => show win0_3.index t (1 : Fin 4) * 400 + 1 * n.val = win0_3.index t (1 : Fin 4) * 400 + 1 * n.val; rfl
  | ⟨2, _⟩ => show win0_3.index t (2 : Fin 4) * 35 + 1 * cc.val = cc.val; omega
  | ⟨3, _⟩ => show win0_3.index t (3 : Fin 4) * 16 + 1 * mm.val = mm.val; omega

/-- A block of 400 points computed from the staged blocks is the same block of the point convolution of the whole arrays. -/
theorem block_eq (c : Dev nD) (t : Fin cfg0.N) (y : S1x400x35x16.Idx) :
    convOut 400 (iblk m c 0 t) (iblk m c 1 t) (iblk m c 2 t) y
      = convOut 100000 (V m c main_v7) (V m c main_arg2) (V m c main_arg3) (((cfg0.win 3).blk t).view.emb y) := by
  obtain ⟨b, n, cc, mm, rfl⟩ : ∃ (b : Fin 1) (n : Fin 400) (cc : Fin 35) (mm : Fin 16), y = ix4 b n cc mm := ⟨y 0, y 1, y 2, y 3, eq_ix4 y⟩
  rw [result_emb]
  exact convOut_restrict _ _ _ _ _ _ b (rowOf t n) n cc mm (gathered_blk m c t b n) (weights_blk m c t b n) (additional_blk m c t b n)

/-- WHAT STEP `t` WRITES BACK is block `t` of the point convolution of the arrays as the grid finds them. -/
theorem flushed_eq (c : Dev nD) (t : Fin cfg0.N) :
    (dats m 0 c).flushed 3 t
      = ((cfg0.win 3).blk t).view.read (Elt Ideal) (convOut 100000 (V m c main_v7) (V m c main_arg2) (V m c main_arg3)) := by
  show (cfg0.win 3).cut (grid0.coords t) ((dats m 0 c).after 3 t) = _
  rw [after0_3]
  unfold out0_3
  rw [View.canon_unit_zero hz]
  simp only [View.ld_unit_zero (S := S1x400x16x32) hz, View.ld_unit_zero (S := S1x400x16x3) hz, View.ld_unit_zero (S := S1x400x16x16) hz]
  funext y
  exact (congrFun (payload_eq (iblk m c 0 t) (iblk m c 2 t) (iblk m c 1 t)) y).trans (block_eq m c t y)

/-- An index of the result array is in step `t`'s block iff each coordinate is in the block's range on its axis. -/
theorem mem_blk (t : Fin cfg0.N) (i : S1x100000x35x16.Idx) :
    i ∈ ((cfg0.win 3).blk t).view.set ↔ ∀ a : Fin 4, win0_3.index t a * S1x400x35x16.size a ≤ (i a).val ∧ (i a).val < win0_3.index t a * S1x400x35x16.size a + S1x400x35x16.size a := by
  show i ∈ ((View.whole main_v8).slice (win0_3.rect t)).set ↔ _
  rw [View.set_slice_whole, Rect.mem_set_unit]
  exact Iff.rfl

/-- THE COVER: row r of the result lies in the block of the step whose row block is r / 400. -/
theorem cover (i : S1x100000x35x16.Idx) :
    ∃ t : Fin cfg0.N, (cfg0.win 3).flush t = true ∧ i ∈ ((cfg0.win 3).blk t).view.set := by
  have h0 : (i 0).val < 1 := (i 0).isLt
  have h1 : (i 1).val < 100000 := (i 1).isLt
  have h2 : (i 2).val < 35 := (i 2).isLt
  have h3 : (i 3).val < 16 := (i 3).isLt
  obtain ⟨t, ht⟩ := idx_onto ⟨(i 1).val / 400, by omega⟩
  have q0 : win0_3.index t (0 : Fin 4) = 0 := congrFun ht 0
  have q1 : win0_3.index t (1 : Fin 4) = (i 1).val / 400 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 400 ≤ (i 1).val ∧ (i 1).val < win0_3.index t (1 : Fin 4) * 400 + 400; omega
  | ⟨2, _⟩ => show win0_3.index t (2 : Fin 4) * 35 ≤ (i 2).val ∧ (i 2).val < win0_3.index t (2 : Fin 4) * 35 + 35; omega
  | ⟨3, _⟩ => show win0_3.index t (3 : Fin 4) * 16 ≤ (i 3).val ∧ (i 3).val < win0_3.index t (3 : Fin 4) * 16 + 16; omega

/-- THE RESULT ARRAY after the last step: the point convolution of the arrays as the grid finds them. -/
theorem final (c : Dev nD) :
    (dats m 0 c).arrAt 3 cfg0.N = convOut 100000 (V m c main_v7) (V m c main_arg2) (V m c main_arg3) :=
  (dats m 0 c).arrAt_eq_of_cover 3 _ (fun t _ => flushed_eq m c t) cover

end Cert.KernelIdeal.Hand

end
-- ==== Proof.KernelRun.lean ====
/-
  The whole program around the grid. Before the grid the host rounds the feature table to the narrow format (the
  identity at the exact values), brings negative neighbour indices into range by adding the row count, and gathers
  one feature row per neighbour; after the grid it flattens each point's 35 × 16 output matrix to 560 entries. So the
  program's result is that flattening of the point convolution of the gathered rows, the weights and the additional
  features, and its arguments end unchanged.
-/
import proofs.«151088_j4097398800822_2_alg».proof.Proof.Blocks
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx Cert.PointConv
open Idealize.ShloMosaic.Pipeline (Dat)

/-- The gathered feature rows as a function of the feature table and the neighbour indices: a negative index has the
    row count 100000 added, and row `idx[n, k]` of the (rounded) table is read for neighbour k of point n. -/
def gathered (x0 : (⟨S1x100000x32, .f32⟩ : BufTy).Contents (Elt Ideal)) (x1 : (⟨S1x100000x16, .i32⟩ : BufTy).Contents (Elt Ideal)) :
    (⟨S1x100000x16x32, .bf16⟩ : BufTy).Contents (Elt Ideal) :=
  Host.gather gather_S1x100000x32_S1x100000x16x1_S1x100000x16x32_3_1_0_0_1_3_1132 (truncf (F := Ideal) .bf16 x0 bitsLt_bf16_f32)
    (broadcastInDim S1x100000x16x1 ![0, 1, 2] bcast_S1x100000x16_S1x100000x16x1_0_1_2
      (select (cmpi .slt x1 (broadcastInDim S1x100000x16 ![] bcast_S_S1x100000x16 (constantI S_ 32 0#32)))
        (addi x1 (broadcastInDim S1x100000x16 ![] bcast_S_S1x100000x16 (constantI S_ 32 100000#32))) x1))

variable (m : (ℓ : Loc nD τ sig) → Buf (Elt Ideal) ℓ) (ρ : Dev nD → PrngReg)

/-- What the grid finds in the gathered-features array. -/
theorem V_gathered (c : Dev nD) :
    V m c main_v7 = gathered (m ((c : Thread nD τ).loc main_arg0)) (m ((c : Thread nD τ).loc main_arg1)) := by
  show StableHlo.after hostOps0 (fun b => m (c, b)) (Proc.devRef .tc main_v7) = _
  after_results
  rfl

/-- The program's result as a function of its arguments. -/
def result (x0 : (⟨S1x100000x32, .f32⟩ : BufTy).Contents (Elt Ideal)) (x1 : (⟨S1x100000x16, .i32⟩ : BufTy).Contents (Elt Ideal))
    (x2 : (⟨S1x100000x16x16, .f32⟩ : BufTy).Contents (Elt Ideal)) (x3 : (⟨S1x100000x16x3, .f32⟩ : BufTy).Contents (Elt Ideal)) :
    (⟨S1x100000x560, .f32⟩ : BufTy).Contents (Elt Ideal) :=
  shapeCast S1x100000x560 (convOut 100000 (gathered x0 x1) x2 x3) shapeCasts_S1x100000x35x16_S1x100000x560

/-- The flattening after the grid, applied to the result array the grid leaves. -/
theorem tail_eq (c : Dev nD) :
    Pipeline.afterTail₀ cfgs (dats m) 0 (V0 m) [hostOps1] c main_v9
      = result (m ((c : Thread nD τ).loc main_arg0)) (m ((c : Thread nD τ).loc main_arg1)) (m ((c : Thread nD τ).loc main_arg2)) (m ((c : Thread nD τ).loc main_arg3)) := by
  unfold Pipeline.afterTail₀
  show StableHlo.after hostOps1 _ (Proc.devRef .tc main_v9) = _
  after_results
  have e : Pipeline.withArrays spec0 c (V0 m c) (fun w => (dats m 0 c).arrAt w cfg0.N) (Proc.devRef .tc (Pipeline.arrRef spec0 3))
      = convOut 100000 (V m c main_v7) (V m c main_arg2) (V m c main_arg3) :=
    (Pipeline.withArrays_arr spec0 launch0.win.arr_inj c _ _ 3).trans (final m c)
  rw [V_gathered, V_main_arg2, V_main_arg3] at e
  unfold result
  funext i
  show shapeCast S1x100000x560 (Pipeline.withArrays spec0 c (V0 m c) (fun w => (dats m 0 c).arrAt w cfg0.N) (Proc.devRef .tc (Pipeline.arrRef spec0 3)))
    shapeCasts_S1x100000x35x16_S1x100000x560 i = _
  rw [e]

/-- THE RUN: every weakly fair execution ends with the result buffer at `result` of the arguments as launched, and
    the arguments unchanged. -/
theorem run : θ_run defs (onTc (τ := τ) (main (F := Ideal))) ⟨m, fun _ => 0, ρ⟩ fun r => ∀ c : Dev nD,
      r.2.mem ((c.tc : Thread nD τ).loc main_v9)
        = result (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v9 (Pipeline.mem_restRefs_of main_v9 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c)))⟩)
    (run_main m ρ)

end Cert.KernelIdeal.Hand

end
-- ==== Proof.RefValue.lean ====
/-
  The reference, entry by entry. Its product contracts the neighbour axis of the concatenated features [1, N, 16, 35]
  with that of the weights [1, N, 16, 16], the two leading axes being batch axes: entry (0, n, c, m) of the result is
  the sum over the 16 neighbours k of feat[0, n, k, c] · w[0, n, k, m], where the concatenation reads the gathered
  features below channel 32 and the additional ones from there on. That is the point convolution of all the points.
-/
import proofs.«151088_j4097398800822_2_alg».proof.Proof.Gen.ReferenceIdeal.Read
import proofs.«151088_j4097398800822_2_alg».proof.Proof.Spec
import Idealize.ShloMosaic.Lib.Pipeline.Value
import Idealize.ShloMosaic.Lib.ValueIdx

noncomputable section

namespace Cert.ReferenceIdeal.Hand

open Cert.ReferenceIdeal Cert.ReferenceIdeal.Gen Cert.ReferenceIdeal.Read Idealize.ShloMosaic Idealize.ShloMosaic.ValueIdx Cert.PointConv

/-- The concatenation along the channel axis at channel `c` of neighbour `k` of point `n`. -/
theorem concat_at (g : FVec Ideal S1x100000x16x32 .f32) (a : FVec Ideal S1x100000x16x3 .f32) (b : Fin 1) (n : Fin 100000) (k : Fin 16) (c : Fin 35) :
    concatenate S1x100000x16x35 3 [⟨S1x100000x16x32, g⟩, ⟨S1x100000x16x3, a⟩] concatenates_S1x100000x16x32_S1x100000x16x3_S1x100000x16x35_d3 (ix4 b n k c)
      = featRow g a b n k c := by
  unfold featRow
  by_cases h : c.val < 32
  · rw [dif_pos h]
    exact concatenate_pair_apply_left (3 : Fin S1x100000x16x35.rank) g a _ (ix4 b n k c) rfl (ix4 b n k ⟨c.val, h⟩)
      (fun bb => by match bb with | ⟨0, _⟩ => rfl | ⟨1, _⟩ => rfl | ⟨2, _⟩ => rfl | ⟨3, _⟩ => rfl)
  · rw [dif_neg h]
    exact concatenate_pair_apply_right (3 : Fin S1x100000x16x35.rank) g a _ (ix4 b n k c) rfl rfl (ix4 b n k ⟨c.val - 32, by have := c.isLt; omega⟩)
      (fun bb hb => by match bb, hb with | ⟨0, _⟩, _ => rfl | ⟨1, _⟩, _ => rfl | ⟨2, _⟩, _ => rfl | ⟨3, _⟩, hb => exact absurd rfl hb)
      (by show (c.val - 32) + 32 = c.val; omega)

/-- THE REFERENCE'S PRODUCT is the point convolution of the gathered features, the weights and the additional features. -/
theorem product_eq (x0 : (⟨S1x100000x32, .f32⟩ : BufTy).Contents (Elt Ideal)) (x1 : (⟨S1x100000x16, .i32⟩ : BufTy).Contents (Elt Ideal))
    (x2 : (⟨S1x100000x16x16, .f32⟩ : BufTy).Contents (Elt Ideal)) (x3 : (⟨S1x100000x16x3, .f32⟩ : BufTy).Contents (Elt Ideal)) :
    val_main_v8 (F := Ideal) x0 x1 x2 x3 = convOut 100000 (val_main_v6 (F := Ideal) x0 x1) x2 x3 := by
  funext i
  obtain ⟨b, n, c, m, rfl⟩ : ∃ (b : Fin 1) (n : Fin 100000) (c : Fin 35) (m : Fin 16), i = ix4 b n c m := ⟨i 0, i 1, i 2, i 3, eq_ix4 i⟩
  rw [val_main_v8_apply, convOut_ix4]
  refine Finset.sum_congr rfl fun k _ => ?_
  refine congrArg₂ (· * ·) ?_ ?_
  · have el : lidx_main_v8 (ix4 b n c m) k = ix4 b n k c :=
      funext fun a => by match a with | ⟨0, _⟩ => rfl | ⟨1, _⟩ => rfl | ⟨2, _⟩ => rfl | ⟨3, _⟩ => rfl
    rw [el]
    exact concat_at _ _ b n k c
  · exact congrArg x2 (funext fun a => by match a with | ⟨0, _⟩ => rfl | ⟨1, _⟩ => rfl | ⟨2, _⟩ => rfl | ⟨3, _⟩ => rfl)

end Cert.ReferenceIdeal.Hand

end
-- ==== Proof.Bridge.lean ====
/-
  The two programs compute one function. The reference gathers rows of the feature table as given, the kernel's
  program rows of the table rounded to the narrow format — the same rows at the exact values, where rounding is the
  identity — and both bring the neighbour indices into range the same way; both results are the flattening of the
  point convolution of those rows with the weights and the additional features.
-/
import proofs.«151088_j4097398800822_2_alg».proof.Proof.KernelRun
import proofs.«151088_j4097398800822_2_alg».proof.Proof.RefValue

noncomputable section

namespace Cert.Bridge

open Idealize.ShloMosaic

/-- The reference's gathered rows are the kernel program's. -/
theorem gathered_eq (x0 : (⟨Cert.ReferenceIdeal.S1x100000x32, .f32⟩ : BufTy).Contents (Elt Ideal))
    (x1 : (⟨Cert.ReferenceIdeal.S1x100000x16, .i32⟩ : BufTy).Contents (Elt Ideal)) :
    Cert.ReferenceIdeal.Read.val_main_v6 (F := Ideal) x0 x1 = Cert.KernelIdeal.Hand.gathered x0 x1 := rfl

/-- The reference's result, as its run states it, is the kernel program's result function of the same arguments. -/
theorem result_eq (x0 : (⟨Cert.ReferenceIdeal.S1x100000x32, .f32⟩ : BufTy).Contents (Elt Ideal))
    (x1 : (⟨Cert.ReferenceIdeal.S1x100000x16, .i32⟩ : BufTy).Contents (Elt Ideal))
    (x2 : (⟨Cert.ReferenceIdeal.S1x100000x16x16, .f32⟩ : BufTy).Contents (Elt Ideal))
    (x3 : (⟨Cert.ReferenceIdeal.S1x100000x16x3, .f32⟩ : BufTy).Contents (Elt Ideal)) :
    Cert.ReferenceIdeal.Read.val_main_v9 (F := Ideal) x0 x1 x2 x3 = Cert.KernelIdeal.Hand.result x0 x1 x2 x3 := by
  unfold Cert.ReferenceIdeal.Read.val_main_v9 Cert.KernelIdeal.Hand.result
  rw [Cert.ReferenceIdeal.Hand.product_eq, gathered_eq]

end Cert.Bridge

end
-- ==== Proof.lean ====
/-
  The certificate of the point-convolution kernel against its reference. For each of 100000 points, 16 neighbours
  each carry a 35-channel feature row (32 channels gathered from a feature table by the neighbour's index, 3 given
  directly) and a 16-entry weight row; the point's output is the 35 × 16 matrix Σ_k feat[k, ·]ᵀ · w[k, ·], flattened to
  560 entries. The kernel computes it 400 points per grid step from rows rounded to a narrower float format; at the
  exact values rounding is the identity and the accumulated product is the plain sum, so both programs end with the
  same array, entry by entry, with no condition on the inputs beyond the stated one.
-/
import proofs.«151088_j4097398800822_2_alg».proof.Defs
import proofs.«151088_j4097398800822_2_alg».proof.Proof.Gen.Kernel
import proofs.«151088_j4097398800822_2_alg».proof.Proof.Gen.Kernel.Skeleton
import proofs.«151088_j4097398800822_2_alg».proof.Proof.Gen.Kernel.Launch
import proofs.«151088_j4097398800822_2_alg».proof.Proof.Gen.Kernel.Points
import proofs.«151088_j4097398800822_2_alg».proof.Proof.Gen.Kernel.Frame
import proofs.«151088_j4097398800822_2_alg».proof.Proof.Gen.KernelIdeal
import proofs.«151088_j4097398800822_2_alg».proof.Proof.Gen.KernelIdeal.Skeleton
import proofs.«151088_j4097398800822_2_alg».proof.Proof.Gen.KernelIdeal.Launch
import proofs.«151088_j4097398800822_2_alg».proof.Proof.Gen.KernelIdeal.Points
import proofs.«151088_j4097398800822_2_alg».proof.Proof.Gen.KernelIdeal.Frame
import proofs.«151088_j4097398800822_2_alg».proof.Proof.Gen.ReferenceIdeal
import proofs.«151088_j4097398800822_2_alg».proof.Proof.Gen.Pre_finite_inputs
import proofs.«151088_j4097398800822_2_alg».proof.Proof.Gen.ReferenceIdeal.Run
import proofs.«151088_j4097398800822_2_alg».proof.Proof.Gen.ReferenceIdeal.Read
import proofs.«151088_j4097398800822_2_alg».proof.Proof.KernelRun
import proofs.«151088_j4097398800822_2_alg».proof.Proof.RefValue
import proofs.«151088_j4097398800822_2_alg».proof.Proof.Bridge
import Idealize.ShloMosaic.Adequacy
import Idealize.ShloMosaic.Init

noncomputable section

namespace Cert.Proof

open Idealize.ShloMosaic Idealize.SL.Sem Cert.Kernel

/-- The reference has no kernel: its frame is its run with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- Both programs, run from memories that agree on the arguments, end with the flattened point convolution of the
    gathered rows, the weights and the additional features. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v9_eq _ _ _ _).trans (Cert.Bridge.result_eq _ _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
